-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S64x4096 : Shape := ⟨2, ![64, 4096]⟩
abbrev S4096x64 : Shape := ⟨2, ![4096, 64]⟩
abbrev S64 : Shape := ⟨1, ![64]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x4096x4096 .f32) (main_arg1 : FVec F S64x4096 .f32) (main_arg2 : FVec F S4096x64 .f32) (main_arg3 : FVec F S64 .f32) (main_arg4 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S4x4096x4096 : Shape := ⟨3, ![4, 4096, 4096]⟩
abbrev S64x4096 : Shape := ⟨2, ![64, 4096]⟩
abbrev S4096x64 : Shape := ⟨2, ![4096, 64]⟩
abbrev S64 : Shape := ⟨1, ![64]⟩
abbrev S4096 : Shape := ⟨1, ![4096]⟩
abbrev S64x1 : Shape := ⟨2, ![64, 1]⟩
abbrev S4096x1 : Shape := ⟨2, ![4096, 1]⟩
abbrev S_ : Shape := ⟨0, ![]⟩
abbrev S16384x4096 : Shape := ⟨2, ![16384, 4096]⟩
abbrev S512x4096 : Shape := ⟨2, ![512, 4096]⟩
abbrev S512x64 : Shape := ⟨2, ![512, 64]⟩
abbrev S64x1024 : Shape := ⟨2, ![64, 1024]⟩
abbrev S512x1024 : Shape := ⟨2, ![512, 1024]⟩

abbrev nBuf : Space → Nat
  | .hbm => 20
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S4096x64, .f32⟩
  | .hbm, ⟨3, _⟩ => ⟨S64, .f32⟩
  | .hbm, ⟨4, _⟩ => ⟨S4096, .f32⟩
  | .hbm, ⟨5, _⟩ => ⟨S64x1, .f32⟩
  | .hbm, ⟨6, _⟩ => ⟨S64x4096, .f32⟩
  | .hbm, ⟨7, _⟩ => ⟨S64x4096, .f32⟩
  | .hbm, ⟨8, _⟩ => ⟨S64x4096, .bf16⟩
  | .hbm, ⟨9, _⟩ => ⟨S4096x1, .f32⟩
  | .hbm, ⟨10, _⟩ => ⟨S4096x64, .f32⟩
  | .hbm, ⟨11, _⟩ => ⟨S4096x64, .f32⟩
  | .hbm, ⟨12, _⟩ => ⟨S_, .f32⟩
  | .hbm, ⟨13, _⟩ => ⟨S4096x64, .f32⟩
  | .hbm, ⟨14, _⟩ => ⟨S4096x64, .f32⟩
  | .hbm, ⟨15, _⟩ => ⟨S64x4096, .f32⟩
  | .hbm, ⟨16, _⟩ => ⟨S64x4096, .bf16⟩
  | .hbm, ⟨17, _⟩ => ⟨S16384x4096, .f32⟩
  | .hbm, ⟨18, _⟩ => ⟨S16384x4096, .f32⟩
  | .hbm, ⟨19, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S64x4096, .bf16⟩
  | .local _ .vmem, ⟨3, _⟩ => ⟨S64x4096, .bf16⟩
  | .local _ .vmem, ⟨4, _⟩ => ⟨S512x4096, .f32⟩
  | .local _ .vmem, ⟨5, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64_S64x1_0 : S64.BroadcastsInDim S64x1 (![0] : Fin 1 → Fin S64x1.rank)
  bcast_S64x1_S64x4096_0_1 : S64x1.BroadcastsInDim S64x4096 (![0, 1] : Fin 2 → Fin S64x4096.rank)
  bitsLt_bf16_f32 : FTy.bits .bf16 < FTy.bits .f32
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S_S4096x64 : S_.BroadcastsInDim S4096x64 (![] : Fin 0 → Fin S4096x64.rank)
  transposes_S4096x64_S64x4096_1_0 : S4096x64.Transposes [1, 0] S64x4096
  shapeCasts_S4x4096x4096_S16384x4096 : S4x4096x4096.ShapeCasts S16384x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  slices_S64x4096_o0_0_S64x1024 : S64x4096.Slices ![0, 0] S64x1024
  inb_S512x4096_S512x1024_0_0 : ∀ a, (![0, 0] : Fin 2 → Nat) a + S512x1024.size a ≤ S512x4096.size a
  h_S512x1024 : 0 < S512x1024.numel
  slices_S64x4096_o0_1024_S64x1024 : S64x4096.Slices ![0, 1024] S64x1024
  inb_S512x4096_S512x1024_0_1024 : ∀ a, (![0, 1024] : Fin 2 → Nat) a + S512x1024.size a ≤ S512x4096.size a
  slices_S64x4096_o0_2048_S64x1024 : S64x4096.Slices ![0, 2048] S64x1024
  inb_S512x4096_S512x1024_0_2048 : ∀ a, (![0, 2048] : Fin 2 → Nat) a + S512x1024.size a ≤ S512x4096.size a
  slices_S64x4096_o0_3072_S64x1024 : S64x4096.Slices ![0, 3072] S64x1024
  inb_S512x4096_S512x1024_0_3072 : ∀ a, (![0, 3072] : Fin 2 → Nat) a + S512x1024.size a ≤ S512x4096.size a
  shapeCasts_S16384x4096_S4x4096x4096 : S16384x4096.ShapeCasts S4x4096x4096
  dot_S512x4096_S64x4096_S512x64_1_1_0_0_n_n_wf : DotDims.WF S512x4096 S64x4096 S512x64 [1] [1] [0] [0] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .bf16 = 32 ∨ (Rect.block (s := S64x4096) S64x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .bf16 = 32 ∨ (Rect.block (s := S64x4096) S64x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v11) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S64x4096 : Shape := ⟨2, ![64, 4096]⟩
abbrev S4096x64 : Shape := ⟨2, ![4096, 64]⟩
abbrev S64 : Shape := ⟨1, ![64]⟩
abbrev S4096 : Shape := ⟨1, ![4096]⟩
abbrev S64x1 : Shape := ⟨2, ![64, 1]⟩
abbrev S4096x1 : Shape := ⟨2, ![4096, 1]⟩
abbrev S4x4096x64 : Shape := ⟨3, ![4, 4096, 64]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S4096x64, .f32⟩
  | .hbm, ⟨3, _⟩ => ⟨S64, .f32⟩
  | .hbm, ⟨4, _⟩ => ⟨S4096, .f32⟩
  | .hbm, ⟨5, _⟩ => ⟨S64x1, .f32⟩
  | .hbm, ⟨6, _⟩ => ⟨S64x4096, .f32⟩
  | .hbm, ⟨7, _⟩ => ⟨S64x4096, .f32⟩
  | .hbm, ⟨8, _⟩ => ⟨S4096x1, .f32⟩
  | .hbm, ⟨9, _⟩ => ⟨S4096x64, .f32⟩
  | .hbm, ⟨10, _⟩ => ⟨S4096x64, .f32⟩
  | .hbm, ⟨11, _⟩ => ⟨S4x4096x64, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S64x1_S64x4096_0_1 : S64x1.BroadcastsInDim S64x4096 (![0, 1] : Fin 2 → Fin S64x4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S_S4x4096x4096 : S_.BroadcastsInDim S4x4096x4096 (![] : Fin 0 → Fin S4x4096x4096.rank)
  dot_S4x4096x4096_S64x4096_S4x4096x64_2_1_01_0_n_n_wf : DotDims.WF S4x4096x4096 S64x4096 S4x4096x64 [2] [1] [0, 1] [0] [] []
  dot_S4x4096x64_S4096x64_S4x4096x4096_2_1_01_0_n_n_wf : DotDims.WF S4x4096x64 S4096x64 S4x4096x4096 [2] [1] [0, 1] [0] [] []

variable [Facts₀]

def dot_S4x4096x4096_S64x4096_S4x4096x64_2_1_01_0_n_n : DotDims S4x4096x4096 S64x4096 S4x4096x64 where
  lhsContracting := [2]
  rhsContracting := [1]
  lhsNonContracting := [0, 1]
  rhsNonContracting := [0]
  lhsBatch := []
  rhsBatch := []
  wf := dot_S4x4096x4096_S64x4096_S4x4096x64_2_1_01_0_n_n_wf
def dot_S4x4096x64_S4096x64_S4x4096x4096_2_1_01_0_n_n : DotDims S4x4096x64 S4096x64 S4x4096x4096 where
  lhsContracting := [2]
  rhsContracting := [1]
  lhsNonContracting := [0, 1]
  rhsNonContracting := [0]
  lhsBatch := []
  rhsBatch := []
  wf := dot_S4x4096x64_S4096x64_S4x4096x4096_2_1_01_0_n_n_wf

class Facts : Prop extends Facts₀ where

variable [Facts]
-- ==== Proof.Spec.lean ====
/-
  The result, as one function of the five arguments.

  With `x : [4, 4096, 4096]`, `A : [64, 4096]`, `B : [4096, 64]` and the per-row scales `sA : [64]`,
  `sB : [4096]`, the entry at batch `b`, position `s` and output feature `o` is

      ( ∑ r < 64, ( ∑ k < 4096, x[b, s, k] · (A[r, k] · sA[r]) ) · (B[o, r] · sB[o]) ) · 0.25 :

  the input row against the scaled down-projection, that against the scaled up-projection, and the
  constant `alpha / rank = 0.25` once at the end. Everything is read on the extended reals.
-/
import Idealize.ShloMosaic.PureOps.Ideal
import Idealize.ShloMosaic.Lib.ValueIdx

noncomputable section

namespace Cert.Lora

open Idealize.ShloMosaic Idealize.ShloMosaic.ValueIdx

/-- The inner contraction: row `(b, s)` of `x` against row `r` of the scaled `A`. -/
def down (x : FVec Ideal ⟨3, ![4, 4096, 4096]⟩ .f32) (A : FVec Ideal ⟨2, ![64, 4096]⟩ .f32) (sA : FVec Ideal ⟨1, ![64]⟩ .f32)
    (b : Fin 4) (s : Fin 4096) (r : Fin 64) : EReal :=
  ∑ k : Fin 4096, x (ix3 b s k) * (A (ix2 r k) * sA (ix1 r))

/-- The result at coordinates `(b, s, o)`. -/
def outAt (x : FVec Ideal ⟨3, ![4, 4096, 4096]⟩ .f32) (A : FVec Ideal ⟨2, ![64, 4096]⟩ .f32) (B : FVec Ideal ⟨2, ![4096, 64]⟩ .f32)
    (sA : FVec Ideal ⟨1, ![64]⟩ .f32) (sB : FVec Ideal ⟨1, ![4096]⟩ .f32) (b : Fin 4) (s : Fin 4096) (o : Fin 4096) : EReal :=
  (∑ r : Fin 64, down x A sA b s r * (B (ix2 o r) * sB (ix1 o))) * Ideal.ofBits .f32 0x3E800000#32

/-- The whole result array. -/
def out (x : FVec Ideal ⟨3, ![4, 4096, 4096]⟩ .f32) (A : FVec Ideal ⟨2, ![64, 4096]⟩ .f32) (B : FVec Ideal ⟨2, ![4096, 64]⟩ .f32)
    (sA : FVec Ideal ⟨1, ![64]⟩ .f32) (sB : FVec Ideal ⟨1, ![4096]⟩ .f32) : FVec Ideal ⟨3, ![4, 4096, 4096]⟩ .f32 :=
  fun i => outAt x A B sA sB (i 0) (i 1) (i 2)

end Cert.Lora

end
-- ==== Proof.RefValue.lean ====
/-
  The reference computes the specified function.

  Its two einsums are two contractions over one axis each (the input features, then the rank), its
  two dequantisations are products with a scale broadcast along the other axis, and its last line is
  the product with the constant: read index by index this is the specification's formula as written.
-/
import proofs.«112488_j33603824124646_2_alg».proof.Proof.Gen.ReferenceIdeal.Read
import proofs.«112488_j33603824124646_2_alg».proof.Proof.Spec

noncomputable section

namespace Cert.ReferenceIdeal.RefValue

open Cert.ReferenceIdeal Cert.ReferenceIdeal.Read Idealize.ShloMosaic Idealize.ShloMosaic.ValueIdx

/-- The first einsum's left operand index: the output's batch and position, the contracted feature. -/
theorem lidx6 (b : Fin 4) (s o : Fin 4096) (r : Fin 64) (k : Fin 4096) :
    lidx_main_v6 (lidx_main_v7 (ix3 b s o) r) k = ix3 b s k :=
  funext fun a => Fin.ext (by match a with | ⟨0, _⟩ => rfl | ⟨1, _⟩ => rfl | ⟨2, _⟩ => rfl)

/-- Its right operand index: the rank row, the contracted feature. -/
theorem ridx6 (b : Fin 4) (s o : Fin 4096) (r : Fin 64) (k : Fin 4096) :
    ridx_main_v6 (lidx_main_v7 (ix3 b s o) r) k = ix2 r k :=
  funext fun a => Fin.ext (by match a with | ⟨0, _⟩ => rfl | ⟨1, _⟩ => rfl)

/-- The scale of `A` is read at the row. -/
theorem sidxA (r : Fin 64) (k : Fin 4096) : idx_main_v0 (idx_main_v1 (ix2 r k)) = ix1 r :=
  funext fun a => Fin.ext (by match a with | ⟨0, _⟩ => rfl)

/-- The second einsum's right operand index: the output feature, the contracted rank. -/
theorem ridx7 (b : Fin 4) (s o : Fin 4096) (r : Fin 64) : ridx_main_v7 (ix3 b s o) r = ix2 o r :=
  funext fun a => Fin.ext (by match a with | ⟨0, _⟩ => rfl | ⟨1, _⟩ => rfl)

/-- The scale of `B` is read at the row. -/
theorem sidxB (o : Fin 4096) (r : Fin 64) : idx_main_v3 (idx_main_v4 (ix2 o r)) = ix1 o :=
  funext fun a => Fin.ext (by match a with | ⟨0, _⟩ => rfl)

/-- The reference's result is the specified function of its arguments. -/
theorem result_eq (x0 : (⟨S4x4096x4096, .f32⟩ : BufTy).Contents (Elt Ideal)) (x1 : (⟨S64x4096, .f32⟩ : BufTy).Contents (Elt Ideal))
    (x2 : (⟨S4096x64, .f32⟩ : BufTy).Contents (Elt Ideal)) (x3 : (⟨S64, .f32⟩ : BufTy).Contents (Elt Ideal))
    (x4 : (⟨S4096, .f32⟩ : BufTy).Contents (Elt Ideal)) :
    val_main_v9 (F := Ideal) x0 x1 x2 x3 x4 = Cert.Lora.out x0 x1 x2 x3 x4 := by
  funext i
  obtain ⟨b, s, o, rfl⟩ : ∃ (b : Fin 4) (s o : Fin 4096), i = ix3 b s o := ⟨i 0, i 1, i 2, eq_ix3 i⟩
  rw [val_main_v9_apply, val_main_v7_apply, val_main_v8_apply, val_main_cst_apply]
  simp only [val_main_v6_apply, val_main_v5_apply, val_main_v4_apply, val_main_v3_apply, val_main_v2_apply,
    val_main_v1_apply, val_main_v0_apply, lidx6, ridx6, ridx7, sidxA, sidxB, Ideal.mulf_def, Ideal.ofBits_def]
  rfl

end Cert.ReferenceIdeal.RefValue

end
-- ==== Proof.Body.lean ====
/-
  The body's arithmetic at one grid point, read at an index.

  The body holds a block of 512 rows of the flattened input, the whole scaled `A` (`[64, 4096]`) and the
  whole scaled, transposed `B` (`[64, 4096]`). It forms the hidden block `h[p, r] = ∑ k, x[p, k] · a[r, k]`
  (a product contracting the LAST axis of both operands), and then four products `h · b[:, off : off + 1024]`,
  one per column chunk of 1024, each into a zero accumulator. At the ideal values a matrix product into
  zero is the plain sum over the contracted axis and the float conversions are the identity, so chunk
  `off` at `(p, q)` is `∑ r, (∑ k, x[p, k] · a[r, k]) · b[r, off + q]`.
-/
import proofs.«112488_j33603824124646_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The first product: both operands contract their last axis -/

theorem down_lhs0 (i : S512x64.Idx) (q : dot_S512x4096_S64x4096_S512x64_1_1_0_0_n_n.contr.Idx) : (dot_S512x4096_S64x4096_S512x64_1_1_0_0_n_n.lhsIdx i q 0).val = (i 0).val := by
  unfold DotDims.lhsIdx
  rw [dif_neg (show ¬(0 : Fin S512x4096.rank) ∈ dot_S512x4096_S64x4096_S512x64_1_1_0_0_n_n.lhsBatch by decide), dif_pos (show (0 : Fin S512x4096.rank) ∈ dot_S512x4096_S64x4096_S512x64_1_1_0_0_n_n.lhsNonContracting by decide)]
  rfl
theorem down_lhs1 (i : S512x64.Idx) (q : dot_S512x4096_S64x4096_S512x64_1_1_0_0_n_n.contr.Idx) : (dot_S512x4096_S64x4096_S512x64_1_1_0_0_n_n.lhsIdx i q 1).val = (q ⟨0, by decide⟩).val :=
  dot_S512x4096_S64x4096_S512x64_1_1_0_0_n_n.lhsIdx_val_of_single rfl i q
theorem down_rhs0 (i : S512x64.Idx) (q : dot_S512x4096_S64x4096_S512x64_1_1_0_0_n_n.contr.Idx) : (dot_S512x4096_S64x4096_S512x64_1_1_0_0_n_n.rhsIdx i q 0).val = (i 1).val := by
  unfold DotDims.rhsIdx
  rw [dif_neg (show ¬(0 : Fin S64x4096.rank) ∈ dot_S512x4096_S64x4096_S512x64_1_1_0_0_n_n.rhsBatch by decide), dif_pos (show (0 : Fin S64x4096.rank) ∈ dot_S512x4096_S64x4096_S512x64_1_1_0_0_n_n.rhsNonContracting by decide)]
  rfl
theorem down_rhs1 (i : S512x64.Idx) (q : dot_S512x4096_S64x4096_S512x64_1_1_0_0_n_n.contr.Idx) : (dot_S512x4096_S64x4096_S512x64_1_1_0_0_n_n.rhsIdx i q 1).val = (q ⟨0, by decide⟩).val :=
  dot_S512x4096_S64x4096_S512x64_1_1_0_0_n_n.rhsIdx_val_of_single rfl i q

/-- Into the zero accumulator, entry `(p, r)` is row `p` of the left operand against row `r` of the right. -/
theorem down_apply (lhs : FVec Ideal S512x4096 .bf16) (rhs : FVec Ideal S64x4096 .bf16) (p : Fin 512) (r : Fin 64) :
    matmul dot_S512x4096_S64x4096_S512x64_1_1_0_0_n_n none lhs rhs (constant S512x64 .f32 0x00000000#32) (ix2 p r)
      = ∑ k : Fin 4096, lhs (ix2 p k) * rhs (ix2 r k) := by
  simp only [matmul]
  rw [Ideal.matmul_constant_zero_apply, ← Equiv.sum_comp (contrEquiv1 dot_S512x4096_S64x4096_S512x64_1_1_0_0_n_n 4096 rfl rfl).symm]
  refine Finset.sum_congr rfl fun k _ => ?_
  have hk := contrEquiv1_symm_val dot_S512x4096_S64x4096_S512x64_1_1_0_0_n_n 4096 rfl rfl k
  have el : dot_S512x4096_S64x4096_S512x64_1_1_0_0_n_n.lhsIdx (ix2 p r) ((contrEquiv1 dot_S512x4096_S64x4096_S512x64_1_1_0_0_n_n 4096 rfl rfl).symm k) = ix2 p k := funext fun a => Fin.ext (by
    match a with
    | ⟨0, _⟩ => exact down_lhs0 _ _
    | ⟨1, _⟩ => exact (down_lhs1 _ _).trans hk)
  have er : dot_S512x4096_S64x4096_S512x64_1_1_0_0_n_n.rhsIdx (ix2 p r) ((contrEquiv1 dot_S512x4096_S64x4096_S512x64_1_1_0_0_n_n 4096 rfl rfl).symm k) = ix2 r k := funext fun a => Fin.ext (by
    match a with
    | ⟨0, _⟩ => exact down_rhs0 _ _
    | ⟨1, _⟩ => exact (down_rhs1 _ _).trans hk)
  rw [el, er]

/-! ## The second product: rows times columns -/

theorem up_lhs0 (i : S512x1024.Idx) (q : dot_S512x64_S64x1024_S512x1024_1_0_0_1_n_n.contr.Idx) : (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem up_lhs1 (i : S512x1024.Idx) (q : dot_S512x64_S64x1024_S512x1024_1_0_0_1_n_n.contr.Idx) : (dot_S512x64_S64x1024_S512x1024_1_0_0_1_n_n.lhsIdx i q 1).val = (q ⟨0, by decide⟩).val :=
  dot_S512x64_S64x1024_S512x1024_1_0_0_1_n_n.lhsIdx_val_of_single rfl i q
theorem up_rhs0 (i : S512x1024.Idx) (q : dot_S512x64_S64x1024_S512x1024_1_0_0_1_n_n.contr.Idx) : (dot_S512x64_S64x1024_S512x1024_1_0_0_1_n_n.rhsIdx i q 0).val = (q ⟨0, by decide⟩).val :=
  dot_S512x64_S64x1024_S512x1024_1_0_0_1_n_n.rhsIdx_val_of_single rfl i q
theorem up_rhs1 (i : S512x1024.Idx) (q : dot_S512x64_S64x1024_S512x1024_1_0_0_1_n_n.contr.Idx) : (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- Into the zero accumulator, entry `(p, q)` is row `p` of the left operand against column `q` of the right. -/
theorem up_apply (lhs : FVec Ideal S512x64 .bf16) (rhs : FVec Ideal S64x1024 .bf16) (p : Fin 512) (q : Fin 1024) :
    matmul dot_S512x64_S64x1024_S512x1024_1_0_0_1_n_n none lhs rhs (constant S512x1024 .f32 0x00000000#32) (ix2 p q)
      = ∑ r : Fin 64, lhs (ix2 p r) * rhs (ix2 r q) := by
  simp only [matmul]
  rw [Ideal.matmul_constant_zero_apply, ← Equiv.sum_comp (contrEquiv1 dot_S512x64_S64x1024_S512x1024_1_0_0_1_n_n 64 rfl rfl).symm]
  refine Finset.sum_congr rfl fun r _ => ?_
  have hr := contrEquiv1_symm_val dot_S512x64_S64x1024_S512x1024_1_0_0_1_n_n 64 rfl rfl r
  have el : dot_S512x64_S64x1024_S512x1024_1_0_0_1_n_n.lhsIdx (ix2 p q) ((contrEquiv1 dot_S512x64_S64x1024_S512x1024_1_0_0_1_n_n 64 rfl rfl).symm r) = ix2 p r := funext fun a => Fin.ext (by
    match a with
    | ⟨0, _⟩ => exact up_lhs0 _ _
    | ⟨1, _⟩ => exact (up_lhs1 _ _).trans hr)
  have er : dot_S512x64_S64x1024_S512x1024_1_0_0_1_n_n.rhsIdx (ix2 p q) ((contrEquiv1 dot_S512x64_S64x1024_S512x1024_1_0_0_1_n_n 64 rfl rfl).symm r) = ix2 r q := funext fun a => Fin.ext (by
    match a with
    | ⟨0, _⟩ => exact (up_rhs0 _ _).trans hr
    | ⟨1, _⟩ => exact up_rhs1 _ _)
  rw [el, er]

/-! ## The payloads -/

/-- The hidden block: the input block against the scaled `A`, the conversions and the trivial casts dropped. -/
theorem hidden_apply (v0 : Vec Ideal S512x4096 .f32) (v3 : Vec Ideal S64x4096 .bf16) (p : Fin 512) (r : Fin 64) :
    k0_pay2 v0 v3 (ix2 p r) = ∑ k : Fin 4096, v0 (ix2 p k) * v3 (ix2 r k) := by
  unfold k0_pay2
  refine (down_apply _ _ p r).trans ?_
  simp only [truncf_apply, shapeCast_self]

/-- The loaded `B` passes through its trivial cast. -/
theorem loadedB_eq (v5 : Vec Ideal S64x4096 .bf16) : k0_pay1 v5 = v5 := by
  unfold k0_pay1
  exact shapeCast_self _ _

/-- One column chunk: the hidden block against columns `off … off + 1023` of the scaled, transposed `B`. -/
theorem chunk_apply (off : Nat) (hoff : off + 1024 ≤ 4096) (h : S64x4096.Slices ![0, off] S64x1024)
    (v0 : Vec Ideal S512x4096 .f32) (v3 v5 : Vec Ideal S64x4096 .bf16) (p : Fin 512) (q : Fin 1024) :
    matmul dot_S512x64_S64x1024_S512x1024_1_0_0_1_n_n none (k0_pay2 v0 v3) (extractStridedSlice S64x1024 ![0, off] (k0_pay1 v5) h)
        (constant S512x1024 .f32 0x00000000#32) (ix2 p q)
      = ∑ r : Fin 64, (∑ k : Fin 4096, v0 (ix2 p k) * v3 (ix2 r k)) * v5 (ix2 r ⟨off + q.val, by have := q.isLt; omega⟩) := by
  refine (up_apply _ _ p q).trans ?_
  refine Finset.sum_congr rfl fun r _ => ?_
  rw [hidden_apply, loadedB_eq,
    extractStridedSlice_apply ![0, off] v5 h (ix2 r q) (ix2 r ⟨off + q.val, by have := q.isLt; omega⟩) (fun a => match a with
      | ⟨0, _⟩ => by show r.val = 0 + r.val; omega
      | ⟨1, _⟩ => rfl)]

/-- The four stores' values. -/
theorem chunk0_apply (v0 : Vec Ideal S512x4096 .f32) (v3 v5 : Vec Ideal S64x4096 .bf16) (p : Fin 512) (q : Fin 1024) :
    k0_pay3 v0 v3 v5 (ix2 p q)
      = ∑ r : Fin 64, (∑ k : Fin 4096, v0 (ix2 p k) * v3 (ix2 r k)) * v5 (ix2 r ⟨0 + q.val, by have := q.isLt; omega⟩) := by
  unfold k0_pay3; exact chunk_apply 0 (by norm_num) _ v0 v3 v5 p q
theorem chunk1_apply (v0 : Vec Ideal S512x4096 .f32) (v3 v5 : Vec Ideal S64x4096 .bf16) (p : Fin 512) (q : Fin 1024) :
    k0_pay4 v0 v3 v5 (ix2 p q)
      = ∑ r : Fin 64, (∑ k : Fin 4096, v0 (ix2 p k) * v3 (ix2 r k)) * v5 (ix2 r ⟨1024 + q.val, by have := q.isLt; omega⟩) := by
  unfold k0_pay4; exact chunk_apply 1024 (by norm_num) _ v0 v3 v5 p q
theorem chunk2_apply (v0 : Vec Ideal S512x4096 .f32) (v3 v5 : Vec Ideal S64x4096 .bf16) (p : Fin 512) (q : Fin 1024) :
    k0_pay5 v0 v3 v5 (ix2 p q)
      = ∑ r : Fin 64, (∑ k : Fin 4096, v0 (ix2 p k) * v3 (ix2 r k)) * v5 (ix2 r ⟨2048 + q.val, by have := q.isLt; omega⟩) := by
  unfold k0_pay5; exact chunk_apply 2048 (by norm_num) _ v0 v3 v5 p q
theorem chunk3_apply (v0 : Vec Ideal S512x4096 .f32) (v3 v5 : Vec Ideal S64x4096 .bf16) (p : Fin 512) (q : Fin 1024) :
    k0_pay6 v0 v3 v5 (ix2 p q)
      = ∑ r : Fin 64, (∑ k : Fin 4096, v0 (ix2 p k) * v3 (ix2 r k)) * v5 (ix2 r ⟨3072 + q.val, by have := q.isLt; omega⟩) := by
  unfold k0_pay6; exact chunk_apply 3072 (by norm_num) _ v0 v3 v5 p q

end Cert.KernelIdeal.Body

end
-- ==== Proof.Block.lean ====
/-
  What the body leaves in the output block, as one function of the three input blocks.

  The four stores write the four column chunks `[0, 1024)`, `[1024, 2048)`, `[2048, 3072)`, `[3072, 4096)` of the
  512 × 4096 output block, and chunk `off` at `(p, q)` is `∑ r, (∑ k, x[p, k] · a[r, k]) · b[r, off + q]`: every
  store is the restriction of ONE function of the block index `(p, o)`, namely
  `∑ r, (∑ k, x[p, k] · a[r, k]) · b[r, o]`, and the stores tile the block, so the block holds that function.
-/
import proofs.«112488_j33603824124646_2_alg».proof.Proof.Gen.KernelIdeal.Frame
import proofs.«112488_j33603824124646_2_alg».proof.Proof.Body

noncomputable section

namespace Cert.KernelIdeal.Block

open Cert.KernelIdeal Cert.KernelIdeal.Gen Idealize.ShloMosaic Idealize.ShloMosaic.ValueIdx

/-- The output block at row `p`, column `o`, from the input block `x`, the scaled `A` and the scaled, transposed `B`. -/
def tile (x0 : Vec Ideal S512x4096 .f32) (x1 x2 : Vec Ideal S64x4096 .bf16) (p : Fin 512) (o : Fin 4096) : EReal :=
  ∑ r : Fin 64, (∑ k : Fin 4096, x0 (ix2 p k) * x1 (ix2 r k)) * x2 (ix2 r o)

/-- The same as a function of the block's index. -/
def tileFn (x0 : Vec Ideal S512x4096 .f32) (x1 x2 : Vec Ideal S64x4096 .bf16) : S512x4096.Idx → EReal :=
  fun y => tile x0 x1 x2 (y 0) (y 1)

theorem hz : (![0, 0] : Fin 2 → Nat) = fun _ => 0 := funext fun a => by fin_cases a <;> rfl

/-- A chunk's value at `(p, q)` is the function at the block index the chunk's rectangle gives `(p, q)`. -/
theorem tile_at (x0 : Vec Ideal S512x4096 .f32) (x1 x2 : Vec Ideal S64x4096 .bf16) (off : Nat) (p : Fin 512) (q : Fin 1024)
    (hq : off + q.val < 4096) (a : Fin 512) (b : Fin 4096) (ha : a.val = p.val) (hb : b.val = off + q.val) :
    (∑ r : Fin 64, (∑ k : Fin 4096, x0 (ix2 p k) * x1 (ix2 r k)) * x2 (ix2 r ⟨off + q.val, hq⟩)) = tile x0 x1 x2 a b := by
  obtain rfl : a = p := Fin.ext ha
  obtain rfl : b = ⟨off + q.val, hq⟩ := Fin.ext hb
  rfl

/-- The staging buffer after the body, read at `(p, o)`. -/
theorem out_apply (x0 : Vec Ideal S512x4096 .f32) (x1 x2 : Vec Ideal S64x4096 .bf16) (p : Fin 512) (o : Fin 4096) :
    out0_3 x0 x1 x2 (ix2 p o) = tile x0 x1 x2 p o := by
  unfold out0_3
  refine View.canon_apply_of_pieces (Val := Elt Ideal) (tileFn x0 x1 x2) _ ?_ (ix2 p o) (cover0_3 _ _ _ _ _)
  intro pc hpc x
  simp only [List.mem_cons, List.mem_nil_iff, or_false] at hpc
  rcases hpc with rfl | rfl | rfl | rfl
  · obtain ⟨p', q', rfl⟩ : ∃ (p' : Fin 512) (q' : Fin 1024), x = ix2 p' q' := ⟨x 0, x 1, eq_ix2 x⟩
    refine (Body.chunk3_apply _ _ _ p' q').trans ?_
    rw [View.ld_unit_zero (S := S512x4096) hz _ x0, View.ld_unit_zero (S := S64x4096) hz _ x1, View.ld_unit_zero (S := S64x4096) hz _ x2]
    exact tile_at x0 x1 x2 3072 p' q' _ _ _ (by show 0 + 1 * p'.val = p'.val; omega) (by show 3072 + 1 * q'.val = 3072 + q'.val; omega)
  · obtain ⟨p', q', rfl⟩ : ∃ (p' : Fin 512) (q' : Fin 1024), x = ix2 p' q' := ⟨x 0, x 1, eq_ix2 x⟩
    refine (Body.chunk2_apply _ _ _ p' q').trans ?_
    rw [View.ld_unit_zero (S := S512x4096) hz _ x0, View.ld_unit_zero (S := S64x4096) hz _ x1, View.ld_unit_zero (S := S64x4096) hz _ x2]
    exact tile_at x0 x1 x2 2048 p' q' _ _ _ (by show 0 + 1 * p'.val = p'.val; omega) (by show 2048 + 1 * q'.val = 2048 + q'.val; omega)
  · obtain ⟨p', q', rfl⟩ : ∃ (p' : Fin 512) (q' : Fin 1024), x = ix2 p' q' := ⟨x 0, x 1, eq_ix2 x⟩
    refine (Body.chunk1_apply _ _ _ p' q').trans ?_
    rw [View.ld_unit_zero (S := S512x4096) hz _ x0, View.ld_unit_zero (S := S64x4096) hz _ x1, View.ld_unit_zero (S := S64x4096) hz _ x2]
    exact tile_at x0 x1 x2 1024 p' q' _ _ _ (by show 0 + 1 * p'.val = p'.val; omega) (by show 1024 + 1 * q'.val = 1024 + q'.val; omega)
  · obtain ⟨p', q', rfl⟩ : ∃ (p' : Fin 512) (q' : Fin 1024), x = ix2 p' q' := ⟨x 0, x 1, eq_ix2 x⟩
    refine (Body.chunk0_apply _ _ _ p' q').trans ?_
    rw [View.ld_unit_zero (S := S512x4096) hz _ x0, View.ld_unit_zero (S := S64x4096) hz _ x1, View.ld_unit_zero (S := S64x4096) hz _ x2]
    exact tile_at x0 x1 x2 0 p' q' _ _ _ (by show 0 + 1 * p'.val = p'.val; omega) (by show 0 + 1 * q'.val = 0 + q'.val; omega)

end Cert.KernelIdeal.Block

end
-- ==== Proof.Flat.lean ====
/-
  The array the region leaves, as one function of the three arrays it reads.

  Over the flattened rows: entry `(row, o)` is `∑ r, (∑ k, X[row, k] · A'[r, k]) · B'[r, o]`, with `X` the
  flattened input, `A'` the scaled `A` and `B'` the scaled, transposed `B`. Every grid point writes the
  512 rows of its block of this one function.
-/
import proofs.«112488_j33603824124646_2_alg».proof.KernelIdeal
import Idealize.ShloMosaic.PureOps.Ideal
import Idealize.ShloMosaic.Lib.ValueIdx

noncomputable section

namespace Cert.KernelIdeal.Flat

open Cert.KernelIdeal Idealize.ShloMosaic Idealize.ShloMosaic.ValueIdx

/-- The entry at flattened row `row`, output feature `o`. -/
def entryAt (X : S16384x4096.Idx → EReal) (A Bt : S64x4096.Idx → EReal) (row : Fin 16384) (o : Fin 4096) : EReal :=
  ∑ r : Fin 64, (∑ k : Fin 4096, X (ix2 row k) * A (ix2 r k)) * Bt (ix2 r o)

/-- The whole `[16384, 4096]` array. -/
def arr (X : S16384x4096.Idx → EReal) (A Bt : S64x4096.Idx → EReal) : S16384x4096.Idx → EReal :=
  fun i => entryAt X A Bt (i 0) (i 1)

/-- The entry depends on the coordinates' values only. -/
theorem entryAt_congr (X : S16384x4096.Idx → EReal) (A Bt : S64x4096.Idx → EReal) {row row' : Fin 16384} {o o' : Fin 4096}
    (hr : row'.val = row.val) (ho : o'.val = o.val) : entryAt X A Bt row' o' = entryAt X A Bt row o := by
  obtain rfl : row' = row := Fin.ext hr
  obtain rfl : o' = o := Fin.ext ho
  rfl

end Cert.KernelIdeal.Flat

end
-- ==== Proof.Entry.lean ====
/-
  What the kernel's three input arrays hold when the region is entered.

  Before the call the program flattens `x` from `[4, 4096, 4096]` to `[16384, 4096]` (row `b · 4096 + s`
  is position `s` of batch `b`), scales `A` row by row, and scales `B` row by row, multiplies it by
  `0.25` and transposes it to `[64, 4096]`. The conversions to the narrower float format are the
  identity on the extended reals. Each array is read here at explicit coordinates.
-/
import proofs.«112488_j33603824124646_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen
open Idealize.ShloMosaic Idealize.ShloMosaic.TcCoe Idealize.SL.Sem Idealize.ShloMosaic.StableHlo Idealize.ShloMosaic.ValueIdx

/-- The flattened row of batch `b`, position `s`. -/
abbrev row (b : Fin 4) (s : Fin 4096) : Fin 16384 := ⟨b.val * 4096 + s.val, by have := b.isLt; have := s.isLt; omega⟩

/-- The input flattened to `[16384, 4096]`. -/
def flatX (x : FVec Ideal S4x4096x4096 .f32) : FVec Ideal S16384x4096 .f32 :=
  shapeCast S16384x4096 x shapeCasts_S4x4096x4096_S16384x4096

/-- `A` with every row multiplied by its scale. -/
def scaledA (a : FVec Ideal S64x4096 .f32) (sa : FVec Ideal S64 .f32) : FVec Ideal S64x4096 .bf16 :=
  truncf .bf16 (mulf a (broadcastInDim S64x4096 ![0, 1] bcast_S64x1_S64x4096_0_1
    (broadcastInDim S64x1 ![0] bcast_S64_S64x1_0 sa))) bitsLt_bf16_f32

/-- `B` with every row multiplied by its scale and by the constant, transposed to `[64, 4096]`. -/
def scaledBt (bm : FVec Ideal S4096x64 .f32) (sb : FVec Ideal S4096 .f32) : FVec Ideal S64x4096 .bf16 :=
  truncf .bf16 (transpose S64x4096 [1, 0] (mulf (mulf bm (broadcastInDim S4096x64 ![0, 1] bcast_S4096x1_S4096x64_0_1
    (broadcastInDim S4096x1 ![0] bcast_S4096_S4096x1_0 sb)))
    (broadcastInDim S4096x64 ![] bcast_S_S4096x64 (constant (F := Ideal) S_ .f32 0x3E800000#32)))
    transposes_S4096x64_S64x4096_1_0) bitsLt_bf16_f32

/-- The flattened input at row `b · 4096 + s` is the input at `(b, s)`. -/
theorem flat_apply (x : FVec Ideal S4x4096x4096 .f32) (b : Fin 4) (s k : Fin 4096) :
    flatX x (ix2 (row b s) k) = x (ix3 b s k) :=
  shapeCast_apply x _ (ix2 (row b s) k) (ix3 b s k) (by
    rw [Shape.rowMajor_val_three, Shape.rowMajor_val_two]; rfl)

/-- The scaled `A`: row `r` times its scale. -/
theorem scaledA_apply (a : FVec Ideal S64x4096 .f32) (sa : FVec Ideal S64 .f32) (r : Fin 64) (k : Fin 4096) :
    scaledA a sa (ix2 r k) = a (ix2 r k) * sa (ix1 r) := by
  unfold scaledA
  rw [truncf_apply, mulf_apply,
    broadcastInDim_apply _ bcast_S64x1_S64x4096_0_1 _ (ix2 r k) (ix2 r (0 : Fin 1)) (fun d => match d with
      | ⟨0, _⟩ => by show r.val = if (64 : Nat) = 1 then 0 else r.val; rw [if_neg (by decide)]
      | ⟨1, _⟩ => by show 0 = if (1 : Nat) = 1 then 0 else k.val; rw [if_pos rfl]),
    broadcastInDim_apply _ bcast_S64_S64x1_0 sa (ix2 r (0 : Fin 1)) (ix1 r) (fun d => match d with
      | ⟨0, _⟩ => by show r.val = if (64 : Nat) = 1 then 0 else r.val; rw [if_neg (by decide)])]

/-- The scaled, transposed `B`: entry `(r, o)` is `B[o, r]` times row `o`'s scale, times the constant. -/
theorem scaledB_apply (bm : FVec Ideal S4096x64 .f32) (sb : FVec Ideal S4096 .f32) (r : Fin 64) (o : Fin 4096) :
    scaledBt bm sb (ix2 r o) = (bm (ix2 o r) * sb (ix1 o)) * Ideal.ofBits .f32 0x3E800000#32 := by
  unfold scaledBt
  rw [truncf_apply,
    transpose_apply [1, 0] _ transposes_S4096x64_S64x4096_1_0 (ix2 r o) (ix2 o r) (fun d => match d with
      | ⟨0, _⟩ => rfl
      | ⟨1, _⟩ => rfl),
    mulf_apply, mulf_apply,
    broadcastInDim_apply _ bcast_S4096x1_S4096x64_0_1 _ (ix2 o r) (ix2 o (0 : Fin 1)) (fun d => match d with
      | ⟨0, _⟩ => by show o.val = if (4096 : Nat) = 1 then 0 else o.val; rw [if_neg (by decide)]
      | ⟨1, _⟩ => by show 0 = if (1 : Nat) = 1 then 0 else r.val; rw [if_pos rfl]),
    broadcastInDim_apply _ bcast_S4096_S4096x1_0 sb (ix2 o (0 : Fin 1)) (ix1 o) (fun d => match d with
      | ⟨0, _⟩ => by show o.val = if (4096 : Nat) = 1 then 0 else o.val; rw [if_neg (by decide)]),
    broadcastInDim_apply _ bcast_S_S4096x64 _ (ix2 o r) ix0 (fun d => d.elim0), constant_apply]

variable (m : (ℓ : Loc nD τ sig) → Buf (Elt Ideal) ℓ)

/-- Window 0's array at region entry is the flattened input. -/
theorem V_x (c : Dev nD) : (V m c main_v11 : S16384x4096.Idx → EReal)
    = flatX (m ((c : Thread nD τ).loc main_arg0)) := by
  show StableHlo.after hostOps0 (fun b => m (c, b)) (Proc.devRef .tc main_v11) = _
  after_results <;> rfl

/-- Window 1's array at region entry is the scaled `A`. -/
theorem V_a (c : Dev nD) : (V m c main_v3 : S64x4096.Idx → EReal)
    = scaledA (m ((c : Thread nD τ).loc main_arg1)) (m ((c : Thread nD τ).loc main_arg3)) := by
  show StableHlo.after hostOps0 (fun b => m (c, b)) (Proc.devRef .tc main_v3) = _
  after_results <;> rfl

/-- Window 2's array at region entry is the scaled, transposed `B`. -/
theorem V_b (c : Dev nD) : (V m c main_v10 : S64x4096.Idx → EReal)
    = scaledBt (m ((c : Thread nD τ).loc main_arg2)) (m ((c : Thread nD τ).loc main_arg4)) := by
  show StableHlo.after hostOps0 (fun b => m (c, b)) (Proc.devRef .tc main_v10) = _
  after_results <;> rfl

end Cert.KernelIdeal.Entry

end
-- ==== Proof.Scale.lean ====
/-
  Moving a constant scale across a finite sum of extended reals.

  The kernel multiplies the second factor of every product by the scale `c` before it sums over the
  rank axis, `∑ r, h r * (b r * c)`; the reference sums first and scales once, `(∑ r, h r * b r) * c`.
  On the extended reals multiplication distributes over addition from the right as soon as the factor
  is a nonnegative FINITE number, whatever the summands are (infinite ones included), so the two agree
  with no assumption on `h` and `b`. The scale here is the float `0.25`, whose pattern denotes the
  real number one quarter.
-/
import Idealize.ShloMosaic.PureOps.Ideal

noncomputable section

namespace Cert.Lora

open Idealize.ShloMosaic

/-- The pattern `0x3E800000` is the float `0.25`: at the ideal values, the real number `1/4`. -/
theorem quarter : Ideal.ofBits .f32 0x3E800000#32 = ((1 / 4 : ℝ) : EReal) := by
  simp [Ideal.ofBits, Ideal.ieee, -EReal.coe_mul]; norm_num

/-- It is nonnegative, -/
theorem quarter_nonneg : (0 : EReal) ≤ Ideal.ofBits .f32 0x3E800000#32 := by
  rw [quarter]; exact EReal.coe_nonneg.mpr (by norm_num)

/-- and finite. -/
theorem quarter_ne_top : Ideal.ofBits .f32 0x3E800000#32 ≠ (⊤ : EReal) := by
  rw [quarter]; exact EReal.coe_ne_top _

/-- A nonnegative finite factor on the right distributes over a finite sum of extended reals. -/
theorem sum_mul_of_nonneg {ι : Type*} (s : Finset ι) (f : ι → EReal) {c : EReal} (h0 : 0 ≤ c) (ht : c ≠ ⊤) :
    (∑ r ∈ s, f r) * c = ∑ r ∈ s, f r * c := by
  classical
  induction s using Finset.induction_on with
  | empty => simp
  | insert a s ha ih =>
    rw [Finset.sum_insert ha, Finset.sum_insert ha, EReal.right_distrib_of_nonneg_of_ne_top h0 ht, ih]

/-- Scaling the second factor of every product before the sum is scaling the sum once. -/
theorem sum_mul_scale {ι : Type*} [Fintype ι] (h b : ι → EReal) {c : EReal} (h0 : 0 ≤ c) (ht : c ≠ ⊤) :
    ∑ r, h r * (b r * c) = (∑ r, h r * b r) * c := by
  rw [sum_mul_of_nonneg _ _ h0 ht]
  exact Finset.sum_congr rfl fun r _ => (mul_assoc _ _ _).symm

end Cert.Lora

end
-- ==== Proof.Algebra.lean ====
/-
  The region's array, reshaped back to `[4, 4096, 4096]`, is the specified function of the arguments.

  At `(b, s, o)` the reshaped array is the flat array at row `b · 4096 + s`:
      ∑ r, (∑ k, x[b, s, k] · (A[r, k] · sA[r])) · ((B[o, r] · sB[o]) · 0.25),
  the kernel having folded the constant into `B` before the call. The specification scales once, after the
  sum over `r`. The two agree because the constant is a nonnegative finite number, which on the extended
  reals distributes over any finite sum; no finiteness of the inputs is used.
-/
import proofs.«112488_j33603824124646_2_alg».proof.Proof.Flat
import proofs.«112488_j33603824124646_2_alg».proof.Proof.Entry
import proofs.«112488_j33603824124646_2_alg».proof.Proof.Spec
import proofs.«112488_j33603824124646_2_alg».proof.Proof.Scale

noncomputable section

namespace Cert.KernelIdeal.Algebra

open Cert.KernelIdeal Cert.KernelIdeal.Gen Idealize.ShloMosaic Idealize.ShloMosaic.TcCoe Idealize.SL.Sem Idealize.ShloMosaic.ValueIdx

/-- The flat array of the prepared arguments at row `b · 4096 + s` is the specification at `(b, s, o)`. -/
theorem entry_eq (x : FVec Ideal S4x4096x4096 .f32) (a : FVec Ideal S64x4096 .f32) (bm : FVec Ideal S4096x64 .f32)
    (sa : FVec Ideal S64 .f32) (sb : FVec Ideal S4096 .f32) (b : Fin 4) (s o : Fin 4096) :
    Flat.entryAt (Entry.flatX x) (Entry.scaledA a sa) (Entry.scaledBt bm sb) (Entry.row b s) o
      = Cert.Lora.outAt x a bm sa sb b s o := by
  unfold Flat.entryAt Cert.Lora.outAt
  refine Eq.trans ?_ (Cert.Lora.sum_mul_scale (fun r : Fin 64 => Cert.Lora.down x a sa b s r)
    (fun r : Fin 64 => bm (ix2 o r) * sb (ix1 o)) Cert.Lora.quarter_nonneg Cert.Lora.quarter_ne_top)
  refine Finset.sum_congr rfl fun r _ => ?_
  rw [Entry.scaledB_apply]
  refine congrArg (· * (bm (ix2 o r) * sb (ix1 o) * Ideal.ofBits .f32 0x3E800000#32)) ?_
  unfold Cert.Lora.down
  refine Finset.sum_congr rfl fun k _ => ?_
  rw [Entry.flat_apply, Entry.scaledA_apply]

/-- The flat array reshaped to `[4, 4096, 4096]` is the specified result. -/
theorem reshaped_eq (x : FVec Ideal S4x4096x4096 .f32) (a : FVec Ideal S64x4096 .f32) (bm : FVec Ideal S4096x64 .f32)
    (sa : FVec Ideal S64 .f32) (sb : FVec Ideal S4096 .f32) :
    shapeCast S4x4096x4096 (Flat.arr (Entry.flatX x) (Entry.scaledA a sa) (Entry.scaledBt bm sb)) shapeCasts_S16384x4096_S4x4096x4096
      = Cert.Lora.out x a bm sa sb := by
  funext i
  obtain ⟨b, s, o, rfl⟩ : ∃ (b : Fin 4) (s o : Fin 4096), i = ix3 b s o := ⟨i 0, i 1, i 2, eq_ix3 i⟩
  refine (shapeCast_apply _ shapeCasts_S16384x4096_S4x4096x4096 (ix3 b s o) (ix2 (Entry.row b s) o) (by
    rw [Shape.rowMajor_val_two, Shape.rowMajor_val_three]; rfl)).trans ?_
  exact entry_eq x a bm sa sb b s o

variable (m : (ℓ : Loc nD τ sig) → Buf (Elt Ideal) ℓ)

/-- The same with the arrays as the region finds them. -/
theorem result_eq (c : Dev nD) :
    shapeCast S4x4096x4096 (Flat.arr (V m c main_v11) (V m c main_v3) (V m c main_v10)) shapeCasts_S16384x4096_S4x4096x4096
      = Cert.Lora.out (m ((c : Thread nD τ).loc main_arg0)) (m ((c : Thread nD τ).loc main_arg1)) (m ((c : Thread nD τ).loc main_arg2))
          (m ((c : Thread nD τ).loc main_arg3)) (m ((c : Thread nD τ).loc main_arg4)) := by
  rw [Entry.V_x, Entry.V_a, Entry.V_b]
  exact reshaped_eq _ _ _ _ _

end Cert.KernelIdeal.Algebra

end
-- ==== Proof.KValue.lean ====
/-
  From what each grid point writes to the result of the whole program.

  Grid point `t` (of 32) holds rows `512 t … 512 t + 511` of the flattened input and the whole of the two
  prepared weight arrays, and writes rows `512 t … 512 t + 511` of the `[16384, 4096]` output. What it writes
  is the block of ONE function of the three arrays the region reads (`Flat.arr`), the 32 blocks tile the
  output, so after the region the output array is that function; the program's last line reshapes it to
  `[4, 4096, 4096]`, which is the specified result (`Algebra.result_eq`).
-/
import proofs.«112488_j33603824124646_2_alg».proof.Proof.Gen.KernelIdeal.Frame
import proofs.«112488_j33603824124646_2_alg».proof.Proof.Block
import proofs.«112488_j33603824124646_2_alg».proof.Proof.Flat
import proofs.«112488_j33603824124646_2_alg».proof.Proof.Algebra
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 32 points: the input block moves with the output block along the
    rows, every other block index is zero. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every row block is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- The input block at point `t`, row `p`: the flattened input at the row the output block's index names. -/
theorem blkX (c : Dev nD) (t : Fin cfg0.N) (p : Fin 512) (k : Fin 4096) (row : Fin 16384)
    (hrow : row.val = win0_3.index t (0 : Fin 2) * 512 + p.val) :
    iblk m c 0 t (ix2 p k) = V m c main_v11 (ix2 row k) := by
  obtain ⟨e0, e1, -⟩ := idx_facts t
  show V m c main_v11 (((cfg0.win 0).blk t).view.emb (ix2 p k)) = V m c main_v11 (ix2 row k)
  refine congrArg (V m c main_v11) (funext fun a => Fin.ext ?_)
  match a with
  | ⟨0, _⟩ => show win0_0.index t (0 : Fin 2) * 512 + 1 * p.val = row.val; omega
  | ⟨1, _⟩ => show win0_0.index t (1 : Fin 2) * 4096 + 1 * k.val = k.val; omega

/-- The scaled `A` is staged whole at every point. -/
theorem blkA (c : Dev nD) (t : Fin cfg0.N) (r : Fin 64) (k : Fin 4096) :
    iblk m c 1 t (ix2 r k) = V m c main_v3 (ix2 r k) := by
  obtain ⟨-, -, e2, e3, -⟩ := idx_facts t
  show V m c main_v3 (((cfg0.win 1).blk t).view.emb (ix2 r k)) = V m c main_v3 (ix2 r k)
  refine congrArg (V m c main_v3) (funext fun a => Fin.ext ?_)
  match a with
  | ⟨0, _⟩ => show win0_1.index t (0 : Fin 2) * 64 + 1 * r.val = r.val; omega
  | ⟨1, _⟩ => show win0_1.index t (1 : Fin 2) * 4096 + 1 * k.val = k.val; omega

/-- So is the scaled, transposed `B`. -/
theorem blkB (c : Dev nD) (t : Fin cfg0.N) (r : Fin 64) (o : Fin 4096) :
    iblk m c 2 t (ix2 r o) = V m c main_v10 (ix2 r o) := by
  obtain ⟨-, -, -, -, e4, e5, -⟩ := idx_facts t
  show V m c main_v10 (((cfg0.win 2).blk t).view.emb (ix2 r o)) = V m c main_v10 (ix2 r o)
  refine congrArg (V m c main_v10) (funext fun a => Fin.ext ?_)
  match a with
  | ⟨0, _⟩ => show win0_2.index t (0 : Fin 2) * 64 + 1 * r.val = r.val; omega
  | ⟨1, _⟩ => show win0_2.index t (1 : Fin 2) * 4096 + 1 * o.val = o.val; omega

/-- WHAT POINT `t` WRITES BACK is block `t` of the one function of the arrays the region reads. -/
theorem flushed_eq (c : Dev nD) (t : Fin cfg0.N) :
    (dats m 0 c).flushed 3 t
      = ((cfg0.win 3).blk t).view.read (Elt Ideal) (Flat.arr (V m c main_v11) (V m c main_v3) (V m c main_v10)) := by
  show (cfg0.win 3).cut (grid0.coords t) ((dats m 0 c).after 3 t) = _
  rw [after0_3]
  obtain ⟨e0, e1, e2, e3, e4, e5, e6, e7⟩ := idx_facts t
  funext j
  obtain ⟨p, o, rfl⟩ : ∃ (p : Fin 512) (o : Fin 4096), j = ix2 p o := ⟨j 0, j 1, eq_ix2 j⟩
  have hp : p.val < 512 := p.isLt
  show out0_3 (iblk m c 0 t) (iblk m c 1 t) (iblk m c 2 t) (ix2 p o)
    = Flat.arr (V m c main_v11) (V m c main_v3) (V m c main_v10) (((cfg0.win 3).blk t).view.emb (ix2 p o))
  refine (Block.out_apply (iblk m c 0 t) (iblk m c 1 t) (iblk m c 2 t) p o).trans ?_
  refine Eq.trans ?_ (Flat.entryAt_congr (V m c main_v11) (V m c main_v3) (V m c main_v10)
    (row := ⟨win0_3.index t (0 : Fin 2) * 512 + p.val, by omega⟩) (o := o)
    (by show win0_3.index t (0 : Fin 2) * 512 + 1 * p.val = win0_3.index t (0 : Fin 2) * 512 + p.val; omega)
    (by show win0_3.index t (1 : Fin 2) * 4096 + 1 * o.val = o.val; omega)).symm
  unfold Block.tile Flat.entryAt
  refine Finset.sum_congr rfl fun r _ => ?_
  rw [blkB m c t r o]
  refine congrArg (· * V m c main_v10 (ix2 r o)) ?_
  refine Finset.sum_congr rfl fun k _ => ?_
  rw [blkX m c t p k ⟨win0_3.index t (0 : Fin 2) * 512 + p.val, by omega⟩ rfl, blkA m c t r k]

/-- An index of the output array is in point `t`'s block iff each coordinate is in the block's range on its axis. -/
theorem mem_blk (t : Fin cfg0.N) (i : S16384x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v12).slice (win0_3.rect t)).set ↔ _
  rw [View.set_slice_whole, Rect.mem_set_unit]
  exact Iff.rfl

/-- The 32 row blocks tile the output: row `i 0` is in the block of point `i 0 / 512`. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- THE OUTPUT ARRAY after the region. -/
theorem final (c : Dev nD) :
    (dats m 0 c).arrAt 3 cfg0.N = Flat.arr (V m c main_v11) (V m c main_v3) (V m c main_v10) :=
  (dats m 0 c).arrAt_eq_of_cover 3 _ (fun t _ => flushed_eq m c t) cover

/-- THE RESULT: the program's last line reshapes the output array; it is the specified function of the arguments. -/
theorem tail (c : Dev nD) :
    Pipeline.afterTail₀ cfgs (dats m) 0 (V0 m) [hostOps1] c main_v13
      = Cert.Lora.out (m ((c : Thread nD τ).loc main_arg0)) (m ((c : Thread nD τ).loc main_arg1)) (m ((c : Thread nD τ).loc main_arg2))
          (m ((c : Thread nD τ).loc main_arg3)) (m ((c : Thread nD τ).loc main_arg4)) := by
  refine Eq.trans ?_ (Algebra.result_eq m c)
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v12)
      = Flat.arr (V m c main_v11) (V m c main_v3) (V m c main_v10) :=
    (Pipeline.withArrays_arr spec0 launch0.win.arr_inj c _ _ 3).trans (final m c)
  rw [e]
  rfl

/-- THE RUN, read: every weakly fair execution of the program terminates with the result array at the specified
    function of the arguments and the arguments unchanged. -/
theorem run : θ_run defs (onTc (τ := τ) (main (F := Ideal))) ⟨m, fun _ => 0, ρ⟩ fun r => ∀ c : Dev nD,
      r.2.mem ((c.tc : Thread nD τ).loc main_v13)
        = Cert.Lora.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v13 (Pipeline.mem_restRefs_of main_v13 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.lean ====
/-
  A low-rank adapter, `out = ((x · (A ∘ sA)ᵀ) · (B ∘ sB)ᵀ) · 0.25`, computed two ways.

  The arguments are `x : [4, 4096, 4096]`, `A : [64, 4096]`, `B : [4096, 64]` and one scale per row of each
  weight, `sA : [64]`, `sB : [4096]`. The reference scales the rows of `A` and `B`, contracts `x` with the
  scaled `A` over the 4096 input features, contracts that with the scaled `B` over the 64 rank components,
  and multiplies by `alpha / rank = 0.25`. The kernel flattens `x` to 16384 rows, multiplies the scaled `B` by
  `0.25` BEFORE the call and transposes it, and on each of 32 grid points takes 512 rows of `x`, forms the
  hidden block against the scaled `A` and then the output block in four column chunks; the result is
  reshaped back.

  Read on the extended reals (conversions between float formats are the identity, a matrix product into a
  zero accumulator is the plain sum), entry `(b, s, o)` is

      kernel:     ∑ r, (∑ k, x[b, s, k] · (A[r, k] · sA[r])) · ((B[o, r] · sB[o]) · 0.25)
      reference: (∑ r, (∑ k, x[b, s, k] · (A[r, k] · sA[r])) ·  (B[o, r] · sB[o])) · 0.25 .

  They are equal because `0.25` is a nonnegative finite number, and such a factor distributes over any
  finite sum of extended reals (`Cert.Lora.sum_mul_scale`); associativity does the rest. The inputs'
  finiteness is never used. The specification is `Cert.Lora.out`; `RefValue.result_eq` shows the reference
  computes it, `KValue.run` that the kernel's program ends with it. The idealised kernel is the kernel's own
  text read at the ideal values: nothing was rewritten, so there is nothing to preserve.
-/
import proofs.«112488_j33603824124646_2_alg».proof.Defs
import proofs.«112488_j33603824124646_2_alg».proof.Proof.Gen.Kernel
import proofs.«112488_j33603824124646_2_alg».proof.Proof.Gen.Kernel.Skeleton
import proofs.«112488_j33603824124646_2_alg».proof.Proof.Gen.Kernel.Launch
import proofs.«112488_j33603824124646_2_alg».proof.Proof.Gen.Kernel.Points
import proofs.«112488_j33603824124646_2_alg».proof.Proof.Gen.Kernel.Frame
import proofs.«112488_j33603824124646_2_alg».proof.Proof.Gen.KernelIdeal
import proofs.«112488_j33603824124646_2_alg».proof.Proof.Gen.KernelIdeal.Skeleton
import proofs.«112488_j33603824124646_2_alg».proof.Proof.Gen.KernelIdeal.Launch
import proofs.«112488_j33603824124646_2_alg».proof.Proof.Gen.KernelIdeal.Points
import proofs.«112488_j33603824124646_2_alg».proof.Proof.Gen.KernelIdeal.Frame
import proofs.«112488_j33603824124646_2_alg».proof.Proof.Gen.ReferenceIdeal
import proofs.«112488_j33603824124646_2_alg».proof.Proof.Gen.Pre_finite_inputs
import proofs.«112488_j33603824124646_2_alg».proof.Proof.Gen.ReferenceIdeal.Run
import proofs.«112488_j33603824124646_2_alg».proof.Proof.Gen.ReferenceIdeal.Read
import proofs.«112488_j33603824124646_2_alg».proof.Proof.RefValue
import proofs.«112488_j33603824124646_2_alg».proof.Proof.KValue
import Idealize.ShloMosaic.Adequacy
import Idealize.ShloMosaic.Init

noncomputable section

namespace Cert.Proof

open Idealize.ShloMosaic Idealize.SL.Sem

/-- The kernel's program terminates without a fault and leaves its arguments as they were. -/
theorem frame_kernel : Cert.frame_Kernel := fun m ρ _ => Cert.Kernel.Gen.frame m ρ

/-- So does the same program read at the ideal values. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the arguments both programs end with the specified function of the arguments. -/
theorem algebraic : Cert.algebraic_KernelIdeal_ReferenceIdeal := by
  intro m ρ m' ρ' _ hagree
  refine ⟨fun c => Cert.Lora.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
